-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S512x64 : Shape := ⟨2, ![512, 64]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S131072x64 .f32) (main_arg1 : FVec F S512x64 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S131072x64 : Shape := ⟨2, ![131072, 64]⟩
abbrev S512x64 : Shape := ⟨2, ![512, 64]⟩
abbrev S_ : Shape := ⟨0, ![]⟩
abbrev S512 : Shape := ⟨1, ![512]⟩
abbrev S1x512 : Shape := ⟨2, ![1, 512]⟩
abbrev S131072x512 : Shape := ⟨2, ![131072, 512]⟩
abbrev S4096x64 : Shape := ⟨2, ![4096, 64]⟩
abbrev S4096x512 : Shape := ⟨2, ![4096, 512]⟩
abbrev S4096 : Shape := ⟨1, ![4096]⟩
abbrev S4096x1 : Shape := ⟨2, ![4096, 1]⟩

abbrev nBuf : Space → Nat
  | .hbm => 8
  | .vmem => 6
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S512x64, .bf16⟩
  | .hbm, ⟨3, _⟩ => ⟨S512x64, .f32⟩
  | .hbm, ⟨4, _⟩ => ⟨S_, .f32⟩
  | .hbm, ⟨5, _⟩ => ⟨S512, .f32⟩
  | .hbm, ⟨6, _⟩ => ⟨S1x512, .f32⟩
  | .hbm, ⟨7, _⟩ => ⟨S131072x512, .f32⟩
  | .local _ .vmem, ⟨0, _⟩ => ⟨S4096x64, .f32⟩
  | .local _ .vmem, ⟨1, _⟩ => ⟨S4096x64, .f32⟩
  | .local _ .vmem, ⟨2, _⟩ => ⟨S512x64, .bf16⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S512x64_S512_d1 : S512x64.ReducesTo [1] S512
  h_S_ : 0 < S_.numel
  bcast_S512_S1x512_1 : S512.BroadcastsInDim S1x512 (![1] : Fin 1 → Fin S1x512.rank)
  inb_S4096x64_S4096x64_0_0 : ∀ a, (![0, 0] : Fin 2 → Nat) a + S4096x64.size a ≤ S4096x64.size a
  h_S4096x64 : 0 < S4096x64.numel
  reduces_S4096x64_S4096 : S4096x64.Reduces [1] S4096
  shapeCasts_S4096_S4096x1 : S4096.ShapeCasts S4096x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S4096x1_S4096x512 : S4096x1.Broadcasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  dot_S4096x64_S512x64_S4096x512_1_1_0_0_n_n_wf : DotDims.WF S4096x64 S512x64 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S131072x512.size a
  hwx0_3 : ∀ i : grid0.Coords, EltTy.bits .f32 = 32 ∨ (Rect.block (s := S131072x512) S4096x512.size (cc0_transform_3 i) (hinb0_3 i)).WholeWords (EltTy.packing .f32)

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x64 : Shape := ⟨2, ![131072, 64]⟩
abbrev S512x64 : Shape := ⟨2, ![512, 64]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩

abbrev nBuf : Space → Nat
  | .hbm => 18
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072x64, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S512x64, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S131072x512, .f32⟩
  | .hbm, ⟨11, _⟩ => ⟨S131072x512, .f32⟩
  | .hbm, ⟨12, _⟩ => ⟨S131072x512, .f32⟩
  | .hbm, ⟨13, _⟩ => ⟨S131072x512, .f32⟩
  | .hbm, ⟨14, _⟩ => ⟨S_, .f32⟩
  | .hbm, ⟨15, _⟩ => ⟨S131072x512, .f32⟩
  | .hbm, ⟨16, _⟩ => ⟨S131072x512, .f32⟩
  | .hbm, ⟨17, _⟩ => ⟨S131072x512, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  dot_S131072x64_S512x64_S131072x512_1_1_0_0_n_n_wf : DotDims.WF S131072x64 S512x64 S131072x512 [1] [1] [0] [0] [] []

variable [Facts₀]

def dot_S131072x64_S512x64_S131072x512_1_1_0_0_n_n : DotDims S131072x64 S512x64 S131072x512 where
  lhsContracting := [1]
  rhsContracting := [1]
  lhsNonContracting := [0]
  rhsNonContracting := [0]
  lhsBatch := []
  rhsBatch := []
  wf := dot_S131072x64_S512x64_S131072x512_1_1_0_0_n_n_wf

class Facts : Prop extends Facts₀ where

variable [Facts]
-- ==== Proof.LibColumnLayouts.lean ====
import Idealize.ShloMosaic.Lib.Pipeline.Value
import Idealize.ShloMosaic.Lib.ValueIdx

/-
  Layout changes around a row-wise reduction, read at an index (for any element type and any extents):

  * slab_as_rows   — a [1, n, 1, w] slab read as an [n, w] matrix: entry (r, d) is the slab's (0, r, 0, d);
  * rows_as_slab   — an [n, w] matrix read as a [1, n, 1, w] slab;
  * vec_as_column  — a length-n vector read as an [n, 1] column (what keeping the reduced axis does to a row-wise
                     reduction's result);
  * column_spread  — an [n, 1] column spread over b columns: entry (r, t) is the column's (r, 0).
-/

namespace Cert.LibColumnLayouts

open Idealize.ShloMosaic Idealize.ShloMosaic.ValueIdx

variable {α : Type}

/-- A [1, n, 1, w] slab read as [n, w]: entry (r, d) is the slab's (0, r, 0, d). -/
theorem slab_as_rows {n w : ℕ} (x : (⟨4, ![1, n, 1, w]⟩ : Shape).Idx → α)
    (h : (⟨4, ![1, n, 1, w]⟩ : Shape).ShapeCasts ⟨2, ![n, w]⟩) (r : Fin n) (d : Fin w) :
    shapeCast ⟨2, ![n, w]⟩ x h (ix2 r d) = x (ix4 (0 : Fin 1) r (0 : Fin 1) d) :=
  shapeCast_apply x h _ _ (by
    rw [Shape.rowMajor_val_four, Shape.rowMajor_val_two]
    show ((0 * n + r.val) * 1 + 0) * w + d.val = r.val * w + d.val
    rw [Nat.zero_mul, Nat.zero_add, Nat.mul_one, Nat.add_zero])

/-- [n, w] rows read as a [1, n, 1, w] slab: entry (u, r, v, d) is the matrix's (r, d). -/
theorem rows_as_slab {n w : ℕ} (x : (⟨2, ![n, w]⟩ : Shape).Idx → α)
    (h : (⟨2, ![n, w]⟩ : Shape).ShapeCasts ⟨4, ![1, n, 1, w]⟩) (u : Fin 1) (r : Fin n) (v : Fin 1) (d : Fin w) :
    shapeCast ⟨4, ![1, n, 1, w]⟩ x h (ix4 u r v d) = x (ix2 r d) :=
  shapeCast_apply x h _ _ (by
    rw [Shape.rowMajor_val_four, Shape.rowMajor_val_two]
    show r.val * w + d.val = ((u.val * n + r.val) * 1 + v.val) * w + d.val
    have hu : u.val = 0 := by omega
    have hv : v.val = 0 := by omega
    rw [hu, hv, Nat.zero_mul, Nat.zero_add, Nat.mul_one, Nat.add_zero])

/-- A length-n vector read as an [n, 1] column: entry (r, u) is the vector's r. -/
theorem vec_as_column {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    rw [Shape.rowMajor_val_two, Shape.rowMajor_val_one]
    show r.val = r.val * 1 + u.val
    have hu : u.val = 0 := by omega
    rw [hu, Nat.mul_one, Nat.add_zero])

/-- An [n, 1] column spread over b columns (n ≠ 1): entry (r, t) is the column's (r, 0). -/
theorem column_spread {n b : ℕ} (hb : b ≠ 1) (x : (⟨2, ![n, 1]⟩ : Shape).Idx → α) (h : (⟨2, ![n, 1]⟩ : Shape).Broadcasts ⟨2, ![n, b]⟩)
    (hn : n ≠ 1) (r : Fin n) (t : Fin b) : broadcastTo ⟨2, ![n, b]⟩ x h (ix2 r t) = x (ix2 r (0 : Fin 1)) := by
  refine broadcastTo_apply x h (ix2 r t) (ix2 r (0 : Fin 1)) fun a => ?_
  match a with
  | ⟨0, _⟩ =>
    show r.val = if n = 1 then 0 else r.val
    rw [if_neg hn]
  | ⟨1, _⟩ => rfl

end Cert.LibColumnLayouts
-- ==== Proof.Payload.lean ====
import proofs.«172027_j37941741092924_2_alg».proof.Proof.Gen.KernelIdeal.Skeleton
import proofs.«172027_j37941741092924_2_alg».proof.Proof.LibColumnLayouts
import Idealize.ShloMosaic.Lib.ValueIdx
import Idealize.ShloMosaic.Lib.ValueLayout
import Idealize.ShloMosaic.Lib.Pipeline.Value
import Idealize.ShloMosaic.PureOps.Ideal.Laws

/-
  What one grid step stores, entry by entry.

  A step holds 4096 rows x of the first input, all 512 rows wb of the (format-changed) second input, and the row ws
  of the 512 squared norms of the second input's rows.  Over the extended reals, where a change of float format is the
  identity, the stored tile's entry (p, q) is

      Σ_k (x[p,k]·c)·wb[q,k]  +  Σ_k x[p,k]·x[p,k]  +  ws[0,q],        c the literal −2,

  the matrix product into a zero accumulator read as a plain sum over the one contracted axis, the lane reduction
  from its neutral accumulator as a plain sum, the kept-axis column spread over the 512 columns, and the one-row
  operand spread down the 4096 rows.
-/

noncomputable section

open scoped BigOperators

namespace Cert.Pairwise

open Idealize.ShloMosaic Idealize.ShloMosaic.ValueIdx Cert.KernelIdeal Cert.KernelIdeal.Gen

/-- The tile product's left operand index at output index i and contraction index κ has i's row coordinate … -/
theorem tile_lhs_row (i : S4096x512.Idx) (κ : dot_S4096x64_S512x64_S4096x512_1_1_0_0_n_n.contr.Idx) :
    (dot_S4096x64_S512x64_S4096x512_1_1_0_0_n_n.lhsIdx i κ 0).val = (i 0).val := by
  unfold DotDims.lhsIdx
  rw [dif_neg (show ¬(0 : Fin S4096x64.rank) ∈ dot_S4096x64_S512x64_S4096x512_1_1_0_0_n_n.lhsBatch by decide),
    dif_pos (show (0 : Fin S4096x64.rank) ∈ dot_S4096x64_S512x64_S4096x512_1_1_0_0_n_n.lhsNonContracting by decide)]
  rfl
/-- … and the contraction coordinate on its second axis; -/
theorem tile_lhs_col (i : S4096x512.Idx) (κ : dot_S4096x64_S512x64_S4096x512_1_1_0_0_n_n.contr.Idx) :
    (dot_S4096x64_S512x64_S4096x512_1_1_0_0_n_n.lhsIdx i κ 1).val = (κ ⟨0, by decide⟩).val :=
  dot_S4096x64_S512x64_S4096x512_1_1_0_0_n_n.lhsIdx_val_of_single rfl i κ
/-- the right operand's has i's column coordinate as its ROW (both operands are contracted along their second axis) … -/
theorem tile_rhs_row (i : S4096x512.Idx) (κ : dot_S4096x64_S512x64_S4096x512_1_1_0_0_n_n.contr.Idx) :
    (dot_S4096x64_S512x64_S4096x512_1_1_0_0_n_n.rhsIdx i κ 0).val = (i 1).val := by
  unfold DotDims.rhsIdx
  rw [dif_neg (show ¬(0 : Fin S512x64.rank) ∈ dot_S4096x64_S512x64_S4096x512_1_1_0_0_n_n.rhsBatch by decide),
    dif_pos (show (0 : Fin S512x64.rank) ∈ dot_S4096x64_S512x64_S4096x512_1_1_0_0_n_n.rhsNonContracting by decide)]
  rfl
/-- … and the contraction coordinate on its second axis. -/
theorem tile_rhs_col (i : S4096x512.Idx) (κ : dot_S4096x64_S512x64_S4096x512_1_1_0_0_n_n.contr.Idx) :
    (dot_S4096x64_S512x64_S4096x512_1_1_0_0_n_n.rhsIdx i κ 1).val = (κ ⟨0, by decide⟩).val :=
  dot_S4096x64_S512x64_S4096x512_1_1_0_0_n_n.rhsIdx_val_of_single rfl i κ

/-- The tile product into a zero accumulator, at (p, q): Σ_k l[p,k]·r[q,k]. -/
theorem tile_product_apply (l : FVec Ideal S4096x64 .bf16) (r : FVec Ideal S512x64 .bf16) (p : Fin 4096) (q : Fin 512) :
    FloatOps.matmul dot_S4096x64_S512x64_S4096x512_1_1_0_0_n_n none l r (constant (F := Ideal) S4096x512 .f32 0x00000000#32) (ix2 p q)
      = ∑ k : Fin 64, l (ix2 p k) * r (ix2 q k) := by
  rw [Ideal.matmul_constant_zero_apply,
    ← Equiv.sum_comp (contrEquiv1 dot_S4096x64_S512x64_S4096x512_1_1_0_0_n_n 64 rfl rfl).symm]
  refine Finset.sum_congr rfl fun k _ => ?_
  have hk := contrEquiv1_symm_val dot_S4096x64_S512x64_S4096x512_1_1_0_0_n_n 64 rfl rfl k
  have el : dot_S4096x64_S512x64_S4096x512_1_1_0_0_n_n.lhsIdx (ix2 p q)
      ((contrEquiv1 dot_S4096x64_S512x64_S4096x512_1_1_0_0_n_n 64 rfl rfl).symm k) = ix2 p k :=
    funext fun a => Fin.ext (by
      match a with
      | ⟨0, _⟩ => exact tile_lhs_row _ _
      | ⟨1, _⟩ => exact (tile_lhs_col _ _).trans hk)
  have er : dot_S4096x64_S512x64_S4096x512_1_1_0_0_n_n.rhsIdx (ix2 p q)
      ((contrEquiv1 dot_S4096x64_S512x64_S4096x512_1_1_0_0_n_n 64 rfl rfl).symm k) = ix2 q k :=
    funext fun a => Fin.ext (by
      match a with
      | ⟨0, _⟩ => exact tile_rhs_row _ _
      | ⟨1, _⟩ => exact (tile_rhs_col _ _).trans hk)
  rw [el, er]

/-- The cross term of a step: the first operand scaled by the literal and format-changed, against the second. -/
theorem cross_term_apply (x : FVec Ideal S4096x64 .f32) (wb : FVec Ideal S512x64 .bf16)
    (hlt : FTy.bits .bf16 < FTy.bits .f32) (hc : S512x64.ShapeCasts S512x64) (p : Fin 4096) (q : Fin 512) :
    FloatOps.matmul dot_S4096x64_S512x64_S4096x512_1_1_0_0_n_n none
        (truncf .bf16 (mulf x (broadcast S4096x64 (Scalar.ofBits (F := Ideal) .f32 0xC0000000#32))) hlt)
        (shapeCast S512x64 wb hc) (constant (F := Ideal) S4096x512 .f32 0x00000000#32) (ix2 p q)
      = ∑ k : Fin 64, (x (ix2 p k) * Ideal.ofBits .f32 0xC0000000#32) * wb (ix2 q k) := by
  rw [shapeCast_self, tile_product_apply]
  rfl

/-- The squared norm of row p of the step's rows, kept as a column and spread over the 512 columns. -/
theorem row_norm_apply (x : FVec Ideal S4096x64 .f32) (hr : S4096x64.Reduces [1] S4096) (hφ : FKind.Formats .f32)
    (hacc : (0x00000000#32 : BitVec (FTy.bits .f32)) = FKind.add.neutral .f32 hφ)
    (hc : S4096.ShapeCasts S4096x1) (hb : S4096x1.Broadcasts S4096x512) (p : Fin 4096) (q : Fin 512) :
    broadcastTo S4096x512 (shapeCast S4096x1 (multiReduction .add [1] S4096 (mulf x x) 0x00000000#32 hr hφ hacc) hc) hb (ix2 p q)
      = ∑ k : Fin 64, x (ix2 p k) * x (ix2 p k) := by
  rw [Cert.LibColumnLayouts.column_spread (by decide) _ hb (by decide) p q,
    Cert.LibColumnLayouts.vec_as_column _ hc p 0,
    Ideal.multiReduction_add_single _ _ hr hφ hacc (ix1 p)]
  refine Finset.sum_congr rfl fun k _ => ?_
  have e : hr.lift (ix1 p) k = ix2 p k :=
    funext fun a => Fin.ext (by match a with | ⟨0, _⟩ => rfl | ⟨1, _⟩ => rfl)
  rw [e]; rfl

/-- The one-row operand spread down the rows: entry (p, q) is its entry (0, q). -/
theorem row_spread_apply (ws : FVec Ideal S1x512 .f32) (hc : S1x512.ShapeCasts S1x512) (hb : S1x512.Broadcasts S4096x512)
    (p : Fin 4096) (q : Fin 512) :
    broadcastTo S4096x512 (shapeCast S1x512 ws hc) hb (ix2 p q) = ws (ix2 (0 : Fin 1) q) := by
  rw [shapeCast_self, broadcastTo_1b_ab_apply]

/-- THE STORED TILE at (p, q). -/
theorem payload_apply (x : FVec Ideal S4096x64 .f32) (wb : FVec Ideal S512x64 .bf16) (ws : FVec Ideal S1x512 .f32)
    (p : Fin 4096) (q : Fin 512) :
    k0_pay1 (F := Ideal) x wb ws (ix2 p q)
      = ((∑ k : Fin 64, (x (ix2 p k) * Ideal.ofBits .f32 0xC0000000#32) * wb (ix2 q k))
          + ∑ k : Fin 64, x (ix2 p k) * x (ix2 p k))
        + ws (ix2 (0 : Fin 1) q) := by
  unfold k0_pay1
  exact congrArg₂ (· + ·)
    (congrArg₂ (· + ·) (cross_term_apply x wb _ _ p q) (row_norm_apply x _ _ _ _ _ p q))
    (row_spread_apply ws _ _ p q)

end Cert.Pairwise

end
-- ==== Proof.HostPrefix.lean ====
import proofs.«172027_j37941741092924_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

/-
  What the host computes before the grid starts.

  Two of the grid's operands are prepared on the host from the second input w : [512, 64]: its copy in the narrower
  float format (over the extended reals, w itself), and the [1, 512] row of the squared norms of its rows,
  entry (0, q) = Σ_k w[q,k]² (a host sum from the zero word, laid out as one row).
-/

noncomputable section

open scoped BigOperators

namespace Cert.Pairwise

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The second operand as the grid finds it: the second input with its float format changed. -/
theorem V_narrow (c : Dev nD) :
    (V m c main_v0 : S512x64.Idx → EReal)
      = truncf (F := Ideal) (s := S512x64) (φ := .f32) .bf16 (m ((c : Thread nD τ).loc main_arg1)) bitsLt_bf16_f32 := by
  dsimp only [V, hostOps0]; after_results

/-- The third operand as the grid finds it: the host's row sums of w·w, laid out as one row. -/
theorem V_norms (c : Dev nD) :
    (V m c main_v3 : S1x512.Idx → EReal)
      = broadcastInDim S1x512 ![1] bcast_S512_S1x512_1
          (Host.reduceAdd (F := Ideal)
            (mulf (F := Ideal) (s := S512x64) (φ := .f32) (m ((c : Thread nD τ).loc main_arg1)) (m ((c : Thread nD τ).loc main_arg1)))
            (constant (F := Ideal) S_ .f32 0x00000000#32) reducesTo_S512x64_S512_d1 h_S_) := by
  dsimp only [V, hostOps0]; after_results

/-- A host row sum from the zero word, laid out as one row, at (0, q): the plain sum over row q. -/
theorem norms_row_apply (y : FVec Ideal S512x64 .f32) (hb : S512.BroadcastsInDim S1x512 (![1] : Fin 1 → Fin S1x512.rank))
    (hr : S512x64.ReducesTo [1] S512) (h0 : 0 < S_.numel) (q : Fin 512) :
    broadcastInDim S1x512 ![1] hb (Host.reduceAdd (F := Ideal) y (constant (F := Ideal) S_ .f32 0x00000000#32) hr h0)
        (ix2 (0 : Fin 1) q)
      = ∑ k : Fin 64, y (ix2 q k) := by
  rw [broadcastInDim_apply _ hb _ (ix2 (0 : Fin 1) q) (ix1 q) (fun a => match a with
    | ⟨0, _⟩ => by show q.val = if (512 : Nat) = 1 then 0 else q.val; rw [if_neg (by decide)])]
  simp only [Host.reduceAdd, Ideal.hostReduceAdd_def]
  rw [Ideal.hostReduceAdd_single hr (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

end Cert.Pairwise

end
-- ==== Proof.Spec.lean ====
import Idealize.ShloMosaic.PureOps.Ideal
import Idealize.ShloMosaic.Lib.ValueIdx

/-
  The function both programs compute.

  For x : [131072, 64] and w : [512, 64] over the extended reals, entry (b, u) of the result is

      Σ_k (x[b,k]·c)·w[u,k]  +  Σ_k x[b,k]²  +  Σ_k w[u,k]²,          c the float literal −2,

  the squared Euclidean distance ‖x_b − w_u‖² expanded, with the factor −2 folded into x_b.  The literal is kept
  as its word: it is the same word wherever this form is met, so it is read as the number −2 only where the factor
  has to move (the comparison with ‖x_b‖² + ‖w_u‖² − 2⟨x_b, w_u⟩).
-/

noncomputable section

open scoped BigOperators

namespace Cert.Pairwise

open Idealize.ShloMosaic Idealize.ShloMosaic.ValueIdx

/-- Entry (b, u), by coordinates. -/
def sqdistAt (x : (⟨2, ![131072, 64]⟩ : Shape).Idx → EReal) (w : (⟨2, ![512, 64]⟩ : Shape).Idx → EReal)
    (b : Fin 131072) (u : Fin 512) : EReal :=
  ((∑ k : Fin 64, (x (ix2 b k) * Ideal.ofBits .f32 0xC0000000#32) * w (ix2 u k))
      + ∑ k : Fin 64, x (ix2 b k) * x (ix2 b k))
    + ∑ k : Fin 64, w (ix2 u k) * w (ix2 u k)

/-- The whole [131072, 512] array. -/
def sqdist (x : (⟨2, ![131072, 64]⟩ : Shape).Idx → EReal) (w : (⟨2, ![512, 64]⟩ : Shape).Idx → EReal) :
    (⟨2, ![131072, 512]⟩ : Shape).Idx → EReal :=
  fun i => sqdistAt x w (i 0) (i 1)

theorem sqdist_ix2 (x : (⟨2, ![131072, 64]⟩ : Shape).Idx → EReal) (w : (⟨2, ![512, 64]⟩ : Shape).Idx → EReal)
    (b : Fin 131072) (u : Fin 512) : sqdist x w (ix2 b u) = sqdistAt x w b u := rfl

end Cert.Pairwise

end
-- ==== Proof.Blocks.lean ====
import proofs.«172027_j37941741092924_2_alg».proof.Proof.Gen.KernelIdeal.Value
import proofs.«172027_j37941741092924_2_alg».proof.Proof.Payload
import proofs.«172027_j37941741092924_2_alg».proof.Proof.HostPrefix
import proofs.«172027_j37941741092924_2_alg».proof.Proof.Spec
import Idealize.ShloMosaic.Lib.Pipeline.Value

/-
  From tiles to the whole result array.

  Grid step t (of 32) reads rows 4096·t … 4096·t + 4095 of x, all of the host-prepared operands, and writes rows
  4096·t … 4096·t + 4095 of the result, all 512 columns.  Entry (p, q) of its tile is therefore the expanded squared
  distance at (4096·t + p, q); the 32 tiles partition the rows (row r lies in tile r / 4096), so after the run the
  result array is the expanded squared distance everywhere.
-/

noncomputable section

open scoped BigOperators

namespace Cert.Pairwise

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The first input on core c, as an array of extended reals. -/
abbrev inX (c : Dev nD) : S131072x64.Idx → EReal := m ((c : Thread nD τ).loc main_arg0)
/-- The second input on core c, as an array of extended reals. -/
abbrev inW (c : Dev nD) : S512x64.Idx → EReal := m ((c : Thread nD τ).loc main_arg1)

theorem zero_offsets : (![0, 0] : Fin 2 → Nat) = fun _ => 0 := funext fun a => by fin_cases a <;> rfl

/-- The block index of each operand at step t, decided over the 32 steps: the rows of x and of the result move with
    t, the host-prepared operands stay at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Step t's rows of x: entry (p, k) is x at row 4096·t + p. -/
theorem rows_block_apply (c : Dev nD) (t : Fin cfg0.N) (p : Fin 4096) (k : Fin 64) (r : Fin 131072)
    (hr : r.val = t.val * 4096 + p.val) :
    (iblk m c 0 t : Vec Ideal S4096x64 .f32) (ix2 p k)
      = inX m c (ix2 r k) := by
  obtain ⟨e0, e1, -⟩ := block_indices t
  unfold iblk
  rw [View.read_apply]
  show V m c main_arg0 _ = _
  rw [V_main_arg0]
  congr 1
  funext a; apply Fin.ext
  match a with
  | ⟨0, _⟩ => show win0_0.index t (0 : Fin 2) * 4096 + 1 * p.val = r.val; omega
  | ⟨1, _⟩ => show win0_0.index t (1 : Fin 2) * 64 + 1 * k.val = k.val; omega

/-- Every step sees the whole second input (its format changed, which is the identity on extended reals). -/
theorem narrow_block_apply (c : Dev nD) (t : Fin cfg0.N) (q : Fin 512) (k : Fin 64) :
    (iblk m c 1 t : Vec Ideal S512x64 .bf16) (ix2 q k)
      = inW m c (ix2 q k) := by
  obtain ⟨-, -, e0, e1, -⟩ := block_indices t
  unfold iblk
  rw [View.read_apply]
  show V m c main_v0 _ = _
  rw [V_narrow]
  show inW m c _ = _
  congr 1
  funext a; apply Fin.ext
  match a with
  | ⟨0, _⟩ => show win0_1.index t (0 : Fin 2) * 512 + 1 * q.val = q.val; omega
  | ⟨1, _⟩ => show win0_1.index t (1 : Fin 2) * 64 + 1 * k.val = k.val; omega

/-- Every step sees the whole row of squared norms: entry (0, q) is Σ_k w[q,k]². -/
theorem norms_block_apply (c : Dev nD) (t : Fin cfg0.N) (q : Fin 512) :
    (iblk m c 2 t : Vec Ideal S1x512 .f32) (ix2 (0 : Fin 1) q)
      = ∑ k : Fin 64, inW m c (ix2 q k) * inW m c (ix2 q k) := by
  obtain ⟨-, -, -, -, e0, e1, -⟩ := block_indices t
  unfold iblk
  rw [View.read_apply]
  show V m c main_v3 _ = _
  rw [V_norms]
  have e : (((cfg0.win 2).blk t).view.emb (ix2 (0 : Fin 1) q) : S1x512.Idx) = ix2 (0 : Fin 1) q := by
    funext a; apply Fin.ext
    match a with
    | ⟨0, _⟩ => show win0_2.index t (0 : Fin 2) * 1 + 1 * 0 = 0; omega
    | ⟨1, _⟩ => show win0_2.index t (1 : Fin 2) * 512 + 1 * q.val = q.val; omega
  rw [e]
  exact norms_row_apply (mulf (F := Ideal) (s := S512x64) (φ := .f32) (inW m c) (inW m c)) _ _ _ q

/-- Step t's tile at (p, q) is the expanded squared distance at row 4096·t + p, column q. -/
theorem tile_apply (c : Dev nD) (t : Fin cfg0.N) (p : Fin 4096) (q : Fin 512) (r : Fin 131072)
    (hr : r.val = t.val * 4096 + p.val) :
    k0_pay1 (F := Ideal) (iblk m c 0 t) (iblk m c 1 t) (iblk m c 2 t) (ix2 p q)
      = sqdist (inX m c) (inW m c) (ix2 r q) := by
  refine (payload_apply (iblk m c 0 t) (iblk m c 1 t) (iblk m c 2 t) p q).trans ?_
  rw [sqdist_ix2]
  unfold sqdistAt
  have h1 : ∀ k : Fin 64, (iblk m c 0 t : Vec Ideal S4096x64 .f32) (ix2 p k) = inX m c (ix2 r k) :=
    fun k => rows_block_apply m c t p k r hr
  have h2 : ∀ k : Fin 64, (iblk m c 1 t : Vec Ideal S512x64 .bf16) (ix2 q k) = inW m c (ix2 q k) :=
    fun k => narrow_block_apply m c t q k
  rw [norms_block_apply m c t q]
  simp only [h1, h2]

/-- WHAT STEP t WRITES BACK is its block of the expanded squared distance of the two inputs. -/
theorem flushed_eq (c : Dev nD) (t : Fin cfg0.N) :
    (dats m 0 c).flushed 3 t = ((cfg0.win 3).blk t).view.read (Elt Ideal)
      (sqdist (inX m c) (inW m c)) := by
  rw [Value.flushed3]
  unfold out0_3
  rw [View.canon_unit_zero zero_offsets]
  simp only [View.ld_unit_zero (S := S4096x64) zero_offsets, View.ld_unit_zero (S := S512x64) zero_offsets,
    View.ld_unit_zero (S := S1x512) zero_offsets]
  obtain ⟨-, -, -, -, -, -, e0, e1⟩ := block_indices t
  have hN : t.val < 32 := by have h := t.isLt; have hn : cfg0.N = 32 := N_0; omega
  funext j
  obtain ⟨p, q, rfl⟩ : ∃ (p : Fin 4096) (q : Fin 512), j = ix2 p q := ⟨j 0, j 1, eq_ix2 j⟩
  show k0_pay1 (F := Ideal) (iblk m c 0 t) (iblk m c 1 t) (iblk m c 2 t) (ix2 p q)
    = sqdist (inX m c) (inW m c) (((cfg0.win 3).blk t).view.emb (ix2 p q))
  rw [tile_apply m c t p q ⟨t.val * 4096 + p.val, by omega⟩ rfl]
  congr 1
  funext a; apply Fin.ext
  match a with
  | ⟨0, _⟩ => show t.val * 4096 + p.val = win0_3.index t (0 : Fin 2) * 4096 + 1 * p.val; omega
  | ⟨1, _⟩ => show q.val = win0_3.index t (1 : Fin 2) * 512 + 1 * q.val; omega

/-- An index of the result lies in step t's block iff each coordinate lies in the block's range on its axis. -/
theorem mem_block (t : Fin cfg0.N) (i : S131072x512.Idx) :
    i ∈ ((cfg0.win 3).blk t).view.set ↔ ∀ a : Fin 2, win0_3.index t a * S4096x512.size a ≤ (i a).val
      ∧ (i a).val < win0_3.index t a * S4096x512.size a + S4096x512.size a := by
  show i ∈ ((View.whole main_v4).slice (win0_3.rect t)).set ↔ _
  rw [View.set_slice_whole, Rect.mem_set_unit]
  exact Iff.rfl

/-- The 32 blocks cover the result: row r lies in the block of step r / 4096. -/
theorem blocks_cover (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  obtain ⟨t, ht⟩ : ∃ t : Fin cfg0.N, t.val = (i 0).val / 4096 :=
    ⟨⟨(i 0).val / 4096, by have hn : grid0.N = 32 := N_0; show _ < grid0.N; omega⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 512 ≤ (i 1).val ∧ (i 1).val < win0_3.index t (1 : Fin 2) * 512 + 512
    omega

/-- THE RESULT ARRAY after the run is the expanded squared distance of the two inputs. -/
theorem result_eq (c : Dev nD) :
    (dats m 0 c).arrAt 3 cfg0.N
      = sqdist (inX m c) (inW m c) :=
  (dats m 0 c).arrAt_eq_of_cover 3 _ (fun t _ => flushed_eq m c t) blocks_cover

/-- The kernel's run, read: the result at the expanded squared distance, the inputs unchanged. -/
theorem kernel_run : θ_run defs (onTc (τ := τ) (main (F := Ideal))) ⟨m, fun _ => 0, ρ⟩ fun r => ∀ c : Dev nD,
      r.2.mem ((c : Thread nD τ).loc main_v4)
        = sqdist (inX m c) (inW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.Pairwise

end
-- ==== Proof.LibSquaredDistanceLaw.lean ====
import Idealize.ShloMosaic.PureOps.Ideal

/-
  The algebra of the squared-distance identity ‖a − c‖² = ‖a‖² + ‖c‖² − 2⟨a,c⟩ (vectors of any length n).

  * coe_sum       — a finite sum of real numbers taken in the extended reals is the real sum;
  * word_neg_two  — the word 0xC0000000 denotes −2;   word_two — the word 0x40000000 denotes 2;
  * expand_real   — the identity below, on the extended reals, for real vectors.

  For real vectors a, c of the same length,
      (Σ a² + Σ c²) − 2·Σ a·c  =  Σ (a·(−2))·c + Σ a² + Σ c²,
  i.e. ‖a‖² + ‖c‖² − 2⟨a,c⟩ written once with the factor −2 outside the inner product and once with it folded into
  the first vector.  On the extended reals this needs the entries to be real: moving a negative factor across a sum
  fails at infinities.  Both sides are therefore first brought into ℝ (a finite sum of reals is a real) and the
  identity is proved there.
-/

noncomputable section

open scoped BigOperators

namespace Cert.LibSquaredDistanceLaw

open Idealize.ShloMosaic

/-- A finite sum of real numbers, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The word 0xC0000000 denotes −2. -/
theorem word_neg_two : Ideal.ofBits .f32 0xC0000000#32 = ((-2 : ℝ) : EReal) := by
  simp [Ideal.ofBits, Ideal.ieee, -EReal.coe_mul]; norm_num

/-- The word 0x40000000 denotes 2. -/
theorem word_two : Ideal.ofBits .f32 0x40000000#32 = ((2 : ℝ) : EReal) := by
  simp [Ideal.ofBits, Ideal.ieee, -EReal.coe_mul]; norm_num

/-- ‖a‖² + ‖c‖² − 2⟨a,c⟩ with the factor outside, against the same with −2 folded into a, for real vectors. -/
theorem expand_real {n : ℕ} (a c : Fin n → ℝ) :
    ((∑ k, ((a k : ℝ) : EReal) * (a k : EReal)) + ∑ k, ((c k : ℝ) : EReal) * (c k : EReal))
        - ((2 : ℝ) : EReal) * ∑ k, ((a k : ℝ) : EReal) * (c k : EReal)
      = ((∑ k, (((a k : ℝ) : EReal) * ((-2 : ℝ) : EReal)) * (c k : EReal)) + ∑ k, ((a k : ℝ) : EReal) * (a k : EReal))
        + ∑ k, ((c k : ℝ) : EReal) * (c k : EReal) := by
  simp only [← EReal.coe_mul, coe_sum, ← EReal.coe_add, ← EReal.coe_sub]
  refine congrArg _ ?_
  have e : ∑ k, a k * (-2) * c k = (-2) * ∑ k, a k * c k := by
    rw [Finset.mul_sum]; exact Finset.sum_congr rfl fun k _ => by ring
  rw [e]; ring

end Cert.LibSquaredDistanceLaw

end
-- ==== Proof.Reference.lean ====
import proofs.«172027_j37941741092924_2_alg».proof.Proof.Gen.ReferenceIdeal.Read
import proofs.«172027_j37941741092924_2_alg».proof.Proof.Spec
import proofs.«172027_j37941741092924_2_alg».proof.Proof.LibSquaredDistanceLaw

/-
  The reference computes the expanded squared distance.

  Read one operation at a time, the reference's result at (b, u) is

      (0 + Σ_k x[b,k]²) + (0 + Σ_k w[u,k]²) − 2·Σ_k x[b,k]·w[u,k]

  (the two host sums start from the zero word; the inner product is the host's dot over the one contracted axis).
  When every entry of x and w is a real number this equals Σ_k (x[b,k]·(−2))·w[u,k] + Σ_k x[b,k]² + Σ_k w[u,k]²:
  the factor −2 moves across the finite sum inside ℝ.
-/

noncomputable section

open scoped BigOperators

namespace Cert.Pairwise

open Idealize.ShloMosaic Idealize.ShloMosaic.ValueIdx Cert.ReferenceIdeal Cert.ReferenceIdeal.Read Cert.LibSquaredDistanceLaw

/-- The reference's result at (b, u), one operation at a time. -/
theorem reference_apply (x : FVec Ideal S131072x64 .f32) (w : FVec Ideal S512x64 .f32) (b : Fin 131072) (u : Fin 512) :
    val_main_v12 (F := Ideal) x w (ix2 b u)
      = ((Ideal.ofBits .f32 0x00000000#32 + ∑ k : Fin 64, x (ix2 b k) * x (ix2 b k))
          + (Ideal.ofBits .f32 0x00000000#32 + ∑ k : Fin 64, w (ix2 u k) * w (ix2 u k)))
        - Ideal.ofBits .f32 0x40000000#32 * ∑ k : Fin 64, x (ix2 b k) * w (ix2 u k) := by
  have e1 : ∀ k : Fin 64, idx_main_v1 (idx_main_v2 (idx_main_v7 (ix2 b u))) k = ix2 b k := fun k =>
    funext fun a => Fin.ext (by match a with | ⟨0, _⟩ => rfl | ⟨1, _⟩ => rfl)
  have e4 : ∀ k : Fin 64, idx_main_v4 (idx_main_v5 (idx_main_v8 (ix2 b u))) k = ix2 u k := fun k =>
    funext fun a => Fin.ext (by match a with | ⟨0, _⟩ => rfl | ⟨1, _⟩ => rfl)
  have el : ∀ k : Fin 64, lidx_main_v6 (ix2 b u) k = ix2 b k := fun k =>
    funext fun a => Fin.ext (by match a with | ⟨0, _⟩ => rfl | ⟨1, _⟩ => rfl)
  have er : ∀ k : Fin 64, ridx_main_v6 (ix2 b u) k = ix2 u k := fun k =>
    funext fun a => Fin.ext (by match a with | ⟨0, _⟩ => rfl | ⟨1, _⟩ => rfl)
  rw [val_main_v12_apply, val_main_v9_apply, val_main_v11_apply, val_main_v7_apply, val_main_v2_apply,
    val_main_v1_apply, val_main_v8_apply, val_main_v5_apply, val_main_v4_apply, val_main_v10_apply,
    val_main_cst_1_apply, val_main_v6_apply]
  simp only [e1, e4, el, er, val_main_v0_apply, val_main_v3_apply, val_main_cst_apply, val_main_cst_0_apply,
    Ideal.subf_def, Ideal.addf_def, Ideal.mulf_def, Ideal.ofBits_def]

/-- On real entries the reference's result is the expanded squared distance with −2 folded into x. -/
theorem reference_eq_sqdist (x : FVec Ideal S131072x64 .f32) (w : FVec Ideal S512x64 .f32)
    (hx : ∀ j, ∃ r : ℝ, x j = (r : EReal)) (hw : ∀ j, ∃ r : ℝ, w j = (r : EReal)) :
    val_main_v12 (F := Ideal) x w = sqdist x w := by
  funext i
  obtain ⟨b, u, rfl⟩ : ∃ (b : Fin 131072) (u : Fin 512), i = ix2 b u := ⟨i 0, i 1, eq_ix2 i⟩
  rw [reference_apply, sqdist_ix2]
  unfold sqdistAt
  choose xr hxr using hx
  choose wr hwr using hw
  simp only [hxr, hwr, Ideal.ofBits_zero_f32, zero_add, word_two, word_neg_two]
  exact expand_real (fun k => xr (ix2 b k)) (fun k => wr (ix2 u k))

end Cert.Pairwise

end
-- ==== Proof.LibFiniteIsReal.lean ====
import Idealize.ShloMosaic.Lib.ReduceAll
import Idealize.ShloMosaic.Lib.ValueIdx
import Idealize.ShloMosaic.PureOps.Ideal

/-
  "Every entry is finite" read over the extended reals (any shape).

  A host predicate of the form  all(|x| < +∞)  — the absolute value taken entrywise, compared strictly with the splat
  of the word 0x7F800000, the comparisons folded by `and` from `true` into a scalar — holds exactly when no entry of
  x is +∞ or −∞, so when it holds every entry of x is (the image of) a real number:

  * word_inf                 — the word 0x7F800000 denotes +∞;
  * real_of_abs_lt_inf       — max a (−a) < +∞ makes a a real number;
  * all_real_of_all_finite   — the predicate, for an array of any shape reduced over any axes to a scalar, gives a real
                               number at every index.
-/

noncomputable section

namespace Cert.LibFiniteIsReal

open Idealize.ShloMosaic

/-- The word 0x7F800000 denotes +∞. -/
theorem word_inf : Ideal.ofBits .f32 0x7F800000#32 = (⊤ : EReal) := by
  simp [Ideal.ofBits, Ideal.ieee]

/-- An extended real whose absolute value is strictly below +∞ is a real number. -/
theorem real_of_abs_lt_inf (a : EReal)
    (h : Ideal.cmp .olt (max a (-a)) (Ideal.ofBits .f32 0x7F800000#32) = 1#1) : ∃ r : ℝ, a = (r : EReal) := by
  rw [word_inf] at h
  induction a using EReal.rec with
  | bot => simp [Ideal.cmp] at h
  | coe r => exact ⟨r, rfl⟩
  | top => simp [Ideal.cmp] at h

/-- The scalar shape has one index. -/
instance : Subsingleton (⟨0, ![]⟩ : Shape).Idx := ⟨fun _ _ => funext fun d => d.elim0⟩

/-- If all(|x| < +∞) holds of an array x of any shape, every entry of x is a real number. -/
theorem all_real_of_all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ValueIdx.ix0 = 1#1) :
    ∀ j, ∃ r : ℝ, x j = (r : EReal) :=
  fun j => real_of_abs_lt_inf _ (Host.reduce_andi_all _ _ hr h0 _ e j)

end Cert.LibFiniteIsReal

end
-- ==== Proof.Finite.lean ====
import proofs.«172027_j37941741092924_2_alg».proof.Pre_finite_inputs
import proofs.«172027_j37941741092924_2_alg».proof.Proof.LibFiniteIsReal
import Idealize.ShloMosaic.Lib.Affine

/-
  Finite inputs are real numbers.

  The precondition is the conjunction, over the two input arrays, of "every entry's absolute value lies strictly below
  +∞".  Each conjunct makes every entry of its array a real number; this is the form in which the algebra of the
  distance identity uses the precondition.
-/

noncomputable section

namespace Cert.Pairwise

open Idealize.ShloMosaic

/-- Under the precondition every entry of both input arrays is a real number. -/
theorem reals_of_pre [Cert.Pre_finite_inputs.Facts]
    (x : FVec Ideal Cert.Pre_finite_inputs.S131072x64 .f32) (w : FVec Ideal Cert.Pre_finite_inputs.S512x64 .f32)
    (h : Cert.Pre_finite_inputs.fn (F := Ideal) x w = fun _ => 1#1) :
    (∀ j, ∃ r : ℝ, x j = (r : EReal)) ∧ (∀ j, ∃ r : ℝ, w j = (r : EReal)) := by
  have h0 := congrFun h ValueIdx.ix0
  dsimp only [Cert.Pre_finite_inputs.fn] at h0
  obtain ⟨hx, hw⟩ := IntOp.andi_eq_one.mp h0
  exact ⟨Cert.LibFiniteIsReal.all_real_of_all_finite x _ _ _ hx,
    Cert.LibFiniteIsReal.all_real_of_all_finite w _ _ _ hw⟩

end Cert.Pairwise

end
-- ==== Proof.lean ====
/-
  Pairwise squared Euclidean distances between the 131072 rows of x : [131072, 64] and the 512 rows of w : [512, 64].

  The kernel walks the rows of x in 32 tiles of 4096 rows.  For a tile it forms, on the matrix unit,
  Σ_k (x[b,k]·(−2))·w[u,k] (the factor −2 folded into x before the change to the narrower float format, which over
  the extended reals is the identity), adds the tile's row norms Σ_k x[b,k]² and the row of norms Σ_k w[u,k]² that the
  host prepared once.  The reference computes (Σ_k x[b,k]² + Σ_k w[u,k]²) − 2·Σ_k x[b,k]·w[u,k].

  Both are ‖x_b − w_u‖² expanded; they differ in where the factor −2 stands.  Moving a negative factor across a sum
  is not valid at infinities on the extended reals, so the equality uses the precondition: finite inputs are real
  numbers, a finite sum of reals is real, and in ℝ the identity is the distributive law.

  The modules: Spec (the function), LibSquaredDistanceLaw (the identity in ℝ, the literals −2 and 2), LibFiniteIsReal and
  Finite (finite inputs are real), LibColumnLayouts (a kept-axis column read at an index),
  Payload (one tile entry by entry), HostPrefix (the host-prepared operands), Blocks (tiles to the whole array and
  the kernel's run), Reference (the reference's result is the same function).  The three frames are the generated
  ones; nothing was rewritten by the idealization, so there is nothing to preserve.
-/
import proofs.«172027_j37941741092924_2_alg».proof.Defs
import proofs.«172027_j37941741092924_2_alg».proof.Proof.Gen.Kernel
import proofs.«172027_j37941741092924_2_alg».proof.Proof.Gen.Kernel.Frame
import proofs.«172027_j37941741092924_2_alg».proof.Proof.Gen.KernelIdeal
import proofs.«172027_j37941741092924_2_alg».proof.Proof.Gen.KernelIdeal.Frame
import proofs.«172027_j37941741092924_2_alg».proof.Proof.Gen.KernelIdeal.Value
import proofs.«172027_j37941741092924_2_alg».proof.Proof.Gen.ReferenceIdeal
import proofs.«172027_j37941741092924_2_alg».proof.Proof.Gen.ReferenceIdeal.Run
import proofs.«172027_j37941741092924_2_alg».proof.Proof.Gen.ReferenceIdeal.Read
import proofs.«172027_j37941741092924_2_alg».proof.Proof.Gen.Pre_finite_inputs
import proofs.«172027_j37941741092924_2_alg».proof.Proof.Blocks
import proofs.«172027_j37941741092924_2_alg».proof.Proof.Reference
import proofs.«172027_j37941741092924_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the expanded squared distance of the inputs: the kernel tile by tile with −2 folded into x,
    the reference with −2 outside the inner product — equal because the finite inputs are real numbers. -/
theorem algebraic : Cert.algebraic_KernelIdeal_ReferenceIdeal := by
  intro m ρ m' ρ' hpre hagree
  refine ⟨fun c => Cert.Pairwise.sqdist (Cert.Pairwise.inX m c) (Cert.Pairwise.inW m c), Cert.Pairwise.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  obtain ⟨hx, hw⟩ := Cert.Pairwise.reals_of_pre _ _ (hpre c)
  exact Cert.Pairwise.reference_eq_sqdist _ _ hx hw

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
